-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x3 : Shape := ⟨3, ![4, 1024, 3]⟩
abbrev S1x64 : Shape := ⟨2, ![1, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S4x1024x3 : S_.BroadcastsInDim S4x1024x3 (![] : Fin 0 → Fin S4x1024x3.rank)
  reducesTo_S4x1024x3_S_d0_1_2 : S4x1024x3.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S4x1024x3 .f32) (main_arg1 : FVec F S1x64 .f32) (main_arg2 : FVec F S64 .f32) (main_arg3 : FVec F S64x16 .f32) (main_arg4 : FVec F S16 .f32) : IVec S_ 1 :=
  let main_v0 : FVec F S4x1024x3 .f32 := Host.absf main_arg0
  let main_cst : FVec F S_ .f32 := constant S_ .f32 0x7F800000#32
  let main_v1 : FVec F S4x1024x3 .f32 := broadcastInDim S4x1024x3 ![] bcast_S_S4x1024x3 main_cst
  let main_v2 : IVec S4x1024x3 1 := cmpf .olt main_v0 main_v1
  let main_c : IVec S_ 1 := constantI S_ 1 1#1
  let main_v3 : IVec S_ 1 := (fun x v => Host.reduce IntOp.andi x v reducesTo_S4x1024x3_S_d0_1_2 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_v13 main_v16
-- ==== Kernel.lean ====
abbrev S4x1024x3 : Shape := ⟨3, ![4, 1024, 3]⟩
abbrev S1x64 : Shape := ⟨2, ![1, 64]⟩
abbrev S64 : Shape := ⟨1, ![64]⟩
abbrev S64x16 : Shape := ⟨2, ![64, 16]⟩
abbrev S16 : Shape := ⟨1, ![16]⟩
abbrev S4x16x1024x1024 : Shape := ⟨4, ![4, 16, 1024, 1024]⟩
abbrev S1x128x3 : Shape := ⟨3, ![1, 128, 3]⟩
abbrev S1x16x128x128 : Shape := ⟨4, ![1, 16, 128, 128]⟩
abbrev S128x3 : Shape := ⟨2, ![128, 3]⟩
abbrev S3x128 : Shape := ⟨2, ![3, 128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S1x1x64 : Shape := ⟨3, ![1, 1, 64]⟩
abbrev S128x128x64 : Shape := ⟨3, ![128, 128, 64]⟩
abbrev S16384x64 : Shape := ⟨2, ![16384, 64]⟩
abbrev S16384x16 : Shape := ⟨2, ![16384, 16]⟩
abbrev S1x16 : Shape := ⟨2, ![1, 16]⟩
abbrev S128x128x16 : Shape := ⟨3, ![128, 128, 16]⟩
abbrev S16x128x128 : Shape := ⟨3, ![16, 128, 128]⟩

abbrev nBuf : Space → Nat
  | .hbm => 6
  | .vmem => 10
  | .smem => 0
  | _ => 0

abbrev bufTy : (tb : Table) → Fin (tcTables nBuf tb) → BufTy
  | .hbm, ⟨0, _⟩ => ⟨S4x1024x3, .f32⟩
  | .hbm, ⟨1, _⟩ => ⟨S1x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S4x16x1024x1024, .f32⟩
  | .local _ .vmem, ⟨0, _⟩ => ⟨S1x128x3, .f32⟩
  | .local _ .vmem, ⟨1, _⟩ => ⟨S1x128x3, .f32⟩
  | .local _ .vmem, ⟨2, _⟩ => ⟨S1x128x3, .f32⟩
  | .local _ .vmem, ⟨3, _⟩ => ⟨S1x128x3, .f32⟩
  | .local _ .vmem, ⟨4, _⟩ => ⟨S1x64, .f32⟩
  | .local _ .vmem, ⟨5, _⟩ => ⟨S64, .f32⟩
  | .local _ .vmem, ⟨6, _⟩ => ⟨S64x16, .f32⟩
  | .local _ .vmem, ⟨7, _⟩ => ⟨S16, .f32⟩
  | .local _ .vmem, ⟨8, _⟩ => ⟨S1x16x128x128, .f32⟩
  | .local _ .vmem, ⟨9, _⟩ => ⟨S1x16x128x128, .f32⟩
  | _, _ => ⟨S4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  transposes_S128x3_p1_0_S3x128 : S128x3.Transposes [1, 0] S3x128
  slices_S128x3_o0_0_S128x1 : S128x3.Slices ![0, 0] S128x1
  slices_S3x128_o0_0_S1x128 : S3x128.Slices ![0, 0] S1x128
  broadcasts_S128x1_S128x128 : S128x1.Broadcasts S128x128
  broadcasts_S1x128_S128x128 : S1x128.Broadcasts S128x128
  slices_S128x3_o0_1_S128x1 : S128x3.Slices ![0, 1] S128x1
  slices_S3x128_o1_0_S1x128 : S3x128.Slices ![1, 0] S1x128
  slices_S128x3_o0_2_S128x1 : S128x3.Slices ![0, 2] S128x1
  slices_S3x128_o2_0_S1x128 : S3x128.Slices ![2, 0] S1x128
  inb_S1x64_S1x64_0_0 : ∀ a, (![0, 0] : Fin 2 → Nat) a + S1x64.size a ≤ S1x64.size a
  h_S1x64 : 0 < S1x64.numel
  shapeCasts_S1x64_S64 : S1x64.ShapeCasts S64
  inb_S64_S64_0 : ∀ a, (![0] : Fin 1 → Nat) a + S64.size a ≤ S64.size a
  h_S64 : 0 < S64.numel
  shapeCasts_S128x128_S128x128x1 : S128x128.ShapeCasts S128x128x1
  shapeCasts_S64_S1x1x64 : S64.ShapeCasts S1x1x64
  broadcasts_S128x128x1_S128x128x64 : S128x128x1.Broadcasts S128x128x64
  broadcasts_S1x1x64_S128x128x64 : S1x1x64.Broadcasts S128x128x64
  shapeCasts_S128x128x64_S16384x64 : S128x128x64.ShapeCasts S16384x64
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S16384x16 : S1x16.Broadcasts S16384x16
  shapeCasts_S16384x16_S128x128x16 : S16384x16.ShapeCasts S128x128x16
  transposes_S128x128x16_p2_0_1_S16x128x128 : S128x128x16.Transposes [2, 0, 1] S16x128x128
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  shapeCasts_S16x128x128_S1x16x128x128 : S16x128x128.ShapeCasts S1x16x128x128
  dot_S16384x64_S64x16_S16384x16_1_0_0_1_n_n_wf : DotDims.WF S16384x64 S64x16 S16384x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3.size a ≤ S4x1024x3.size a
  hwx0_0 : ∀ i : grid0.Coords, EltTy.bits .f32 = 32 ∨ (Rect.block (s := S4x1024x3) S1x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x3.size a ≤ S4x1024x3.size a
  hwx0_1 : ∀ i : grid0.Coords, EltTy.bits .f32 = 32 ∨ (Rect.block (s := S4x1024x3) S1x128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x128x128.size a ≤ S4x16x1024x1024.size a
  hwx0_6 : ∀ i : grid0.Coords, EltTy.bits .f32 = 32 ∨ (Rect.block (s := S4x16x1024x1024) S1x16x128x128.size (cc0_transform_6 i) (hinb0_6 i)).WholeWords (EltTy.packing .f32)

variable [Facts₀]

def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf

abbrev win0_0 : Pipeline.Window sig grid0 :=
  Pipeline.Window.ofSpec (Memref.whole main_arg0) S1x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x16x128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x1024x3 : Shape := ⟨3, ![4, 1024, 3]⟩
abbrev S1x64 : Shape := ⟨2, ![1, 64]⟩
abbrev S64 : Shape := ⟨1, ![64]⟩
abbrev S64x16 : Shape := ⟨2, ![64, 16]⟩
abbrev S16 : Shape := ⟨1, ![16]⟩
abbrev S4x1024x1x3 : Shape := ⟨4, ![4, 1024, 1, 3]⟩
abbrev S4x1x1024x3 : Shape := ⟨4, ![4, 1, 1024, 3]⟩
abbrev S4x1024x1024x3 : Shape := ⟨4, ![4, 1024, 1024, 3]⟩
abbrev S_ : Shape := ⟨0, ![]⟩
abbrev S4x1024x1024 : Shape := ⟨3, ![4, 1024, 1024]⟩
abbrev S4x1024x1024x1 : Shape := ⟨4, ![4, 1024, 1024, 1]⟩
abbrev S1x1x1x64 : Shape := ⟨4, ![1, 1, 1, 64]⟩
abbrev S4x1024x1024x64 : Shape := ⟨4, ![4, 1024, 1024, 64]⟩
abbrev S4x1024x1024x16 : Shape := ⟨4, ![4, 1024, 1024, 16]⟩
abbrev S1x1x1x16 : Shape := ⟨4, ![1, 1, 1, 16]⟩
abbrev S4x16x1024x1024 : Shape := ⟨4, ![4, 16, 1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x1024x3, .f32⟩
  | .hbm, ⟨1, _⟩ => ⟨S1x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S4x1024x1x3, .f32⟩
  | .hbm, ⟨6, _⟩ => ⟨S4x1x1024x3, .f32⟩
  | .hbm, ⟨7, _⟩ => ⟨S4x1024x1024x3, .f32⟩
  | .hbm, ⟨8, _⟩ => ⟨S4x1024x1024x3, .f32⟩
  | .hbm, ⟨9, _⟩ => ⟨S4x1024x1024x3, .f32⟩
  | .hbm, ⟨10, _⟩ => ⟨S4x1024x1024x3, .f32⟩
  | .hbm, ⟨11, _⟩ => ⟨S_, .f32⟩
  | .hbm, ⟨12, _⟩ => ⟨S4x1024x1024, .f32⟩
  | .hbm, ⟨13, _⟩ => ⟨S_, .f32⟩
  | .hbm, ⟨14, _⟩ => ⟨S4x1024x1024, .f32⟩
  | .hbm, ⟨15, _⟩ => ⟨S4x1024x1024, .i1⟩
  | .hbm, ⟨16, _⟩ => ⟨S_, .f32⟩
  | .hbm, ⟨17, _⟩ => ⟨S_, .f32⟩
  | .hbm, ⟨18, _⟩ => ⟨S4x1024x1024, .f32⟩
  | .hbm, ⟨19, _⟩ => ⟨S4x1024x1024, .f32⟩
  | .hbm, ⟨20, _⟩ => ⟨S_, .f32⟩
  | .hbm, ⟨21, _⟩ => ⟨S4x1024x1024, .f32⟩
  | .hbm, ⟨22, _⟩ => ⟨S4x1024x1024, .i1⟩
  | .hbm, ⟨23, _⟩ => ⟨S4x1024x1024, .f32⟩
  | .hbm, ⟨24, _⟩ => ⟨S_, .f32⟩
  | .hbm, ⟨25, _⟩ => ⟨S_, .f32⟩
  | .hbm, ⟨26, _⟩ => ⟨S4x1024x1024, .f32⟩
  | .hbm, ⟨27, _⟩ => ⟨S4x1024x1024, .f32⟩
  | .hbm, ⟨28, _⟩ => ⟨S4x1024x1024x1, .f32⟩
  | .hbm, ⟨29, _⟩ => ⟨S64, .f32⟩
  | .hbm, ⟨30, _⟩ => ⟨S1x1x1x64, .f32⟩
  | .hbm, ⟨31, _⟩ => ⟨S4x1024x1024x64, .f32⟩
  | .hbm, ⟨32, _⟩ => ⟨S4x1024x1024x64, .f32⟩
  | .hbm, ⟨33, _⟩ => ⟨S4x1024x1024x64, .f32⟩
  | .hbm, ⟨34, _⟩ => ⟨S1x1x1x64, .f32⟩
  | .hbm, ⟨35, _⟩ => ⟨S4x1024x1024x64, .f32⟩
  | .hbm, ⟨36, _⟩ => ⟨S4x1024x1024x64, .f32⟩
  | .hbm, ⟨37, _⟩ => ⟨S4x1024x1024x64, .f32⟩
  | .hbm, ⟨38, _⟩ => ⟨S4x1024x1024x64, .f32⟩
  | .hbm, ⟨39, _⟩ => ⟨S_, .f32⟩
  | .hbm, ⟨40, _⟩ => ⟨S4x1024x1024x64, .f32⟩
  | .hbm, ⟨41, _⟩ => ⟨S4x1024x1024x64, .f32⟩
  | .hbm, ⟨42, _⟩ => ⟨S_, .f32⟩
  | .hbm, ⟨43, _⟩ => ⟨S4x1024x1024x64, .f32⟩
  | .hbm, ⟨44, _⟩ => ⟨S4x1024x1024x64, .f32⟩
  | .hbm, ⟨45, _⟩ => ⟨S4x1024x1024x64, .f32⟩
  | .hbm, ⟨46, _⟩ => ⟨S4x1024x1024x16, .f32⟩
  | .hbm, ⟨47, _⟩ => ⟨S1x1x1x16, .f32⟩
  | .hbm, ⟨48, _⟩ => ⟨S4x1024x1024x16, .f32⟩
  | .hbm, ⟨49, _⟩ => ⟨S4x1024x1024x16, .f32⟩
  | .hbm, ⟨50, _⟩ => ⟨S4x16x1024x1024, .f32⟩
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]

class Facts₀ : Prop where
  bcast_S4x1024x3_S4x1024x1x3_0_1_3 : S4x1024x3.BroadcastsInDim S4x1024x1x3 (![0, 1, 3] : Fin 3 → Fin S4x1024x1x3.rank)
  bcast_S4x1024x3_S4x1x1024x3_0_2_3 : S4x1024x3.BroadcastsInDim S4x1x1024x3 (![0, 2, 3] : Fin 3 → Fin S4x1x1024x3.rank)
  bcast_S4x1024x1x3_S4x1024x1024x3_0_1_2_3 : S4x1024x1x3.BroadcastsInDim S4x1024x1024x3 (![0, 1, 2, 3] : Fin 4 → Fin S4x1024x1024x3.rank)
  bcast_S4x1x1024x3_S4x1024x1024x3_0_1_2_3 : S4x1x1024x3.BroadcastsInDim S4x1024x1024x3 (![0, 1, 2, 3] : Fin 4 → Fin S4x1024x1024x3.rank)
  reducesTo_S4x1024x1024x3_S4x1024x1024_d3 : S4x1024x1024x3.ReducesTo [3] S4x1024x1024
  h_S_ : 0 < S_.numel
  bcast_S_S4x1024x1024 : S_.BroadcastsInDim S4x1024x1024 (![] : Fin 0 → Fin S4x1024x1024.rank)
  bcast_S4x1024x1024_S4x1024x1024x1_0_1_2 : S4x1024x1024.BroadcastsInDim S4x1024x1024x1 (![0, 1, 2] : Fin 3 → Fin S4x1024x1024x1.rank)
  shapeCasts_S1x64_S64 : S1x64.ShapeCasts S64
  bcast_S64_S1x1x1x64_3 : S64.BroadcastsInDim S1x1x1x64 (![3] : Fin 1 → Fin S1x1x1x64.rank)
  bcast_S4x1024x1024x1_S4x1024x1024x64_0_1_2_3 : S4x1024x1024x1.BroadcastsInDim S4x1024x1024x64 (![0, 1, 2, 3] : Fin 4 → Fin S4x1024x1024x64.rank)
  bcast_S1x1x1x64_S4x1024x1024x64_0_1_2_3 : S1x1x1x64.BroadcastsInDim S4x1024x1024x64 (![0, 1, 2, 3] : Fin 4 → Fin S4x1024x1024x64.rank)
  bcast_S_S4x1024x1024x64 : S_.BroadcastsInDim S4x1024x1024x64 (![] : Fin 0 → Fin S4x1024x1024x64.rank)
  bcast_S16_S1x1x1x16_3 : S16.BroadcastsInDim S1x1x1x16 (![3] : Fin 1 → Fin S1x1x1x16.rank)
  bcast_S1x1x1x16_S4x1024x1024x16_0_1_2_3 : S1x1x1x16.BroadcastsInDim S4x1024x1024x16 (![0, 1, 2, 3] : Fin 4 → Fin S4x1024x1024x16.rank)
  transposes_S4x1024x1024x16_S4x16x1024x1024_0_3_1_2 : S4x1024x1024x16.Transposes [0, 3, 1, 2] S4x16x1024x1024
  dot_S4x1024x1024x64_S64x16_S4x1024x1024x16_3_0_012_1_n_n_wf : DotDims.WF S4x1024x1024x64 S64x16 S4x1024x1024x16 [3] [0] [0, 1, 2] [1] [] []

variable [Facts₀]

def dot_S4x1024x1024x64_S64x16_S4x1024x1024x16_3_0_012_1_n_n : DotDims S4x1024x1024x64 S64x16 S4x1024x1024x16 where
  lhsContracting := [3]
  rhsContracting := [0]
  lhsNonContracting := [0, 1, 2]
  rhsNonContracting := [1]
  lhsBatch := []
  rhsBatch := []
  wf := dot_S4x1024x1024x64_S64x16_S4x1024x1024x16_3_0_012_1_n_n_wf

class Facts : Prop extends Facts₀ where

variable [Facts]
-- ==== Proof.BitsRun.lean ====
/-
  The run of `Kernel`'s one pallas_call, for every float instance.

  The call hands ONE array, the coordinates [4, 1024, 3], to two input windows: window 0 stages the block of
  128 query points of batch `b` at tile `qi`, window 1 the block of 128 key points of the same batch at tile
  `ki`. Both only read it, so the array's points-to is dealt between them by halves of its share; the other
  four inputs (the two layers' weights and biases) and the result are held whole.
  At each of the 4·8·8 grid points the body loads the six input blocks, computes one [1, 16, 128, 128] block
  from them alone and stores it over the whole of the result's staging buffer: what the buffer holds after the
  body is the canon of that single store (`outBlock`). The inputs' buffers are left as found, so each holds its
  block at every point, fetched there or not.
-/
import proofs.«117214_j541165879817_1_alg».proof.Proof.Gen.Kernel.Launch
import proofs.«117214_j541165879817_1_alg».proof.Proof.Gen.Kernel.Skeleton
import proofs.«117214_j541165879817_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pairwise

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- Core `c`'s buffers when the region is entered: as launched (@main is the region alone). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the entry contents and whose body leaves the block in place: unfetched, the block index has
    not moved since the point that fetched it. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the entry contents and whose body leaves the block in place: unfetched, the block index has
    not moved since the point that fetched it. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the entry contents and whose body leaves the block in place: unfetched, the block index has
    not moved since the point that fetched it. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the entry contents and whose body leaves the block in place: unfetched, the block index has
    not moved since the point that fetched it. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the entry contents and whose body leaves the block in place: unfetched, the block index has
    not moved since the point that fetched it. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is the entry contents and whose body leaves the block in place: unfetched, the block index has
    not moved since the point that fetched it. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rC : Rect S1x128x3 := Rect.unit (s := S1x128x3) ![0, 0, 0] S1x128x3.size inb_S1x128x3_S1x128x3_0_0_0
abbrev rW1 : Rect S1x64 := Rect.unit (s := S1x64) ![0, 0] S1x64.size inb_S1x64_S1x64_0_0
abbrev rB1 : Rect S64 := Rect.unit (s := S64) ![0] S64.size inb_S64_S64_0
abbrev rW2 : Rect S64x16 := Rect.unit (s := S64x16) ![0, 0] S64x16.size inb_S64x16_S64x16_0_0
abbrev rB2 : Rect S16 := Rect.unit (s := S16) ![0] S16.size inb_S16_S16_0
abbrev rO : Rect S1x16x128x128 := Rect.unit (s := S1x16x128x128) ![0, 0, 0, 0] S1x16x128x128.size inb_S1x16x128x128_S1x16x128x128_0_0_0_0

/-! ## What the body leaves in the result's buffer -/

/-- The result window's staging buffer after the body, from the six input blocks: its one store, which covers
    the buffer, of the block the body computes from the query tile `xq`, the key tile `xk` and the two layers'
    weights and biases. -/
def outBlock (xq xk : Vec F S1x128x3 .f32) (w1 : Vec F S1x64 .f32) (b1 : Vec F S64 .f32) (w2 : Vec F S64x16 .f32) (b2 : Vec F S16 .f32) :
    Vec F S1x16x128x128 .f32 :=
  View.canon [⟨rO, k0_pay1 (k0_pay2 (View.ld xq rC) (View.ld xk rC) (View.ld w1 rW1)) (k0_pay3 (View.ld b1 rB1)) (View.ld w2 rW2) (View.ld b2 rB2)⟩]

/-- The one store is of the whole buffer, so it covers it. -/
theorem cover_out (p0 : Vec F S1x16x128x128 .f32) (y : S1x16x128x128.Idx) :
    ∃ pc ∈ ([⟨rO, p0⟩] : List (View.Piece (Elt F) S1x16x128x128 .f32)), y ∈ pc.1.set :=
  View.cover_of_tiled [⟨rO, p0⟩] S1x16x128x128.size (by rfl) y

/-! ## The body's triple -/

set_option maxHeartbeats 1000000 in
/-- The kernel body on whole staging memrefs, the inputs' at contents `x…` and the result's at anything, runs to
    the continuation holding the inputs' as they were and the result's at `outBlock` of the inputs'. -/
theorem sound_kernel (c : Dev nD) (E : Set ℕ) (i : grid0.Coords)
    (arg3 : Memref sig .tc .vmem S1x128x3 .f32) (harg3 : arg3.IsWhole) (arg4 : Memref sig .tc .vmem S1x128x3 .f32) (harg4 : arg4.IsWhole)
    (arg5 : Memref sig .tc .vmem S1x64 .f32) (harg5 : arg5.IsWhole) (arg6 : Memref sig .tc .vmem S64 .f32) (harg6 : arg6.IsWhole)
    (arg7 : Memref sig .tc .vmem S64x16 .f32) (harg7 : arg7.IsWhole) (arg8 : Memref sig .tc .vmem S16 .f32) (harg8 : arg8.IsWhole)
    (arg9 : Memref sig .tc .vmem S1x16x128x128 .f32) (harg9 : arg9.IsWhole)
    (xq xk : Vec F S1x128x3 .f32) (w1 : Vec F S1x64 .f32) (b1 : Vec F S64 .f32) (w2 : Vec F S64x16 .f32) (b2 : Vec F S16 .f32)
    (K : PUnit → sProp 𝕄) :
    iprop(owns (c : Thread nD τ) arg3 fullShare xq ∗ owns (c : Thread nD τ) arg4 fullShare xk ∗ owns (c : Thread nD τ) arg5 fullShare w1
        ∗ owns (c : Thread nD τ) arg6 fullShare b1 ∗ owns (c : Thread nD τ) arg7 fullShare w2 ∗ owns (c : Thread nD τ) arg8 fullShare b2
        ∗ (∃ d, owns (c : Thread nD τ) arg9 fullShare d)
        ∗ (iprop(owns (c : Thread nD τ) arg3 fullShare xq ∗ owns (c : Thread nD τ) arg4 fullShare xk ∗ owns (c : Thread nD τ) arg5 fullShare w1
            ∗ owns (c : Thread nD τ) arg6 fullShare b1 ∗ owns (c : Thread nD τ) arg7 fullShare w2 ∗ owns (c : Thread nD τ) arg8 fullShare b2
            ∗ owns (c : Thread nD τ) arg9 fullShare (outBlock xq xk w1 b1 w2 b2)) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover_out _)

/-! ## The pipeline's proof data -/

/-- The proof data of the pipeline on core `c`: the arrays as the region finds them; after the body at point `t`
    each input's buffer at its block and the result's at `outBlock` of the six input blocks; no invariant beyond
    the windows (the kernel has no scratch); nothing owed. The coordinates' array is read through windows 0 and 1:
    each holds one half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry, dealt to the windows -/

/-- The buffers behind the windows' arrays, each whole at the full share, are the pipeline's arrays at entry: the
    coordinates' full share is its left half (window 0's) beside its right half (window 1's); every other array is
    one window's, whole. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0]
  rw [BI.bigSep_eq_bigSepL_of_eq [main_arg0, main_arg1, main_arg2, main_arg3, main_arg4, main_v0] (by decide) (by decide)]
  simp only [View.set_whole]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl,
    show (dats m 0 c).share 6 = fullShare from rfl]
  change iprop((((c.tc : Thread nD τ).loc main_arg0) ↦{fullShare} V m c main_arg0) ∗ (((c.tc : Thread nD τ).loc main_arg1) ↦{fullShare} V m c main_arg1)
    ∗ (((c.tc : Thread nD τ).loc main_arg2) ↦{fullShare} V m c main_arg2) ∗ (((c.tc : Thread nD τ).loc main_arg3) ↦{fullShare} V m c main_arg3)
    ∗ (((c.tc : Thread nD τ).loc main_arg4) ↦{fullShare} V m c main_arg4) ∗ (((c.tc : Thread nD τ).loc main_v0) ↦{fullShare} V m c main_v0)) ⊢ _
  iintro ⟨H0, H1, H2, H3, H4, H5⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  isplitl [H3]; · iexact H3
  isplitl [H4]; · iexact H4
  iexact H5

/-! ## The run -/

/-- The rounds library's launch element: every staging cell's owner at round 0 and a duty token for every transfer
    the pipeline issues. -/
def u₀ : UR sig nD τ := initOf (Pipeline.cells cfgs cellOf_inj) (Pipeline.launchToks cfgs cellOf_inj)

/-- The run's post: every array of the call holds what the library computes from the proof data after the last
    write-back. -/
def ArraysPost (r : PUnit × MemSt nD τ sig (Elt F)) : Prop :=
  ∀ (c : Dev nD) (w : Fin cfg0.W), r.2.mem ((cfg0.win w).arr.view.loc (c : Thread nD τ)) = (dats m 0 c).arrAt w cfg0.N

set_option backward.isDefEq.respectTransparency.types false in
/-- At the compiled mesh, for any float values, from any memory with zero counters: every weakly fair execution of
    @main on the TensorCore terminates, nothing faulting, and every final state has every array of the call at
    what the library computes from the proof data. -/
theorem run_main : θ_run defs (onTc (τ := τ) (main (F := F))) (s₀ m ρ) (ArraysPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := Pipeline.hmain_region cfgs 0 defs₀ Variants.none m main fun c => (main_chain c).trans rfl)
    (hsplit := arrays_of_bufs m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-! ## The frame -/

/-- The argument arrays end unchanged: each is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c 0).trans (((dats m 0 c).arrAt_in 0 rfl _).trans (A_eq m c 0)),
      (h c 2).trans (((dats m 0 c).arrAt_in 2 rfl _).trans (A_eq m c 2)),
      (h c 3).trans (((dats m 0 c).arrAt_in 3 rfl _).trans (A_eq m c 3)),
      (h c 4).trans (((dats m 0 c).arrAt_in 4 rfl _).trans (A_eq m c 4)),
      (h c 5).trans (((dats m 0 c).arrAt_in 5 rfl _).trans (A_eq m c 5))⟩) (run_main m ρ)

end Cert.Kernel.Pairwise

end
-- ==== Proof.IdealRun.lean ====
/-
  The run of `KernelIdeal`'s one pallas_call, for every float instance.

  The call hands ONE array, the coordinates [4, 1024, 3], to two input windows: window 0 stages the block of
  128 query points of batch `b` at tile `qi`, window 1 the block of 128 key points of the same batch at tile
  `ki`. Both only read it, so the array's points-to is dealt between them by halves of its share; the other
  four inputs (the two layers' weights and biases) and the result are held whole.
  At each of the 4·8·8 grid points the body loads the six input blocks, computes one [1, 16, 128, 128] block
  from them alone and stores it over the whole of the result's staging buffer: what the buffer holds after the
  body is the canon of that single store (`outBlock`). The inputs' buffers are left as found, so each holds its
  block at every point, fetched there or not.
-/
import proofs.«117214_j541165879817_1_alg».proof.Proof.Gen.KernelIdeal.Launch
import proofs.«117214_j541165879817_1_alg».proof.Proof.Gen.KernelIdeal.Skeleton
import proofs.«117214_j541165879817_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pairwise

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- Core `c`'s buffers when the region is entered: as launched (@main is the region alone). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the entry contents and whose body leaves the block in place: unfetched, the block index has
    not moved since the point that fetched it. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the entry contents and whose body leaves the block in place: unfetched, the block index has
    not moved since the point that fetched it. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the entry contents and whose body leaves the block in place: unfetched, the block index has
    not moved since the point that fetched it. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the entry contents and whose body leaves the block in place: unfetched, the block index has
    not moved since the point that fetched it. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the entry contents and whose body leaves the block in place: unfetched, the block index has
    not moved since the point that fetched it. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is the entry contents and whose body leaves the block in place: unfetched, the block index has
    not moved since the point that fetched it. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rC : Rect S1x128x3 := Rect.unit (s := S1x128x3) ![0, 0, 0] S1x128x3.size inb_S1x128x3_S1x128x3_0_0_0
abbrev rW1 : Rect S1x64 := Rect.unit (s := S1x64) ![0, 0] S1x64.size inb_S1x64_S1x64_0_0
abbrev rB1 : Rect S64 := Rect.unit (s := S64) ![0] S64.size inb_S64_S64_0
abbrev rW2 : Rect S64x16 := Rect.unit (s := S64x16) ![0, 0] S64x16.size inb_S64x16_S64x16_0_0
abbrev rB2 : Rect S16 := Rect.unit (s := S16) ![0] S16.size inb_S16_S16_0
abbrev rO : Rect S1x16x128x128 := Rect.unit (s := S1x16x128x128) ![0, 0, 0, 0] S1x16x128x128.size inb_S1x16x128x128_S1x16x128x128_0_0_0_0

/-! ## What the body leaves in the result's buffer -/

/-- The result window's staging buffer after the body, from the six input blocks: its one store, which covers
    the buffer, of the block the body computes from the query tile `xq`, the key tile `xk` and the two layers'
    weights and biases. -/
def outBlock (xq xk : Vec F S1x128x3 .f32) (w1 : Vec F S1x64 .f32) (b1 : Vec F S64 .f32) (w2 : Vec F S64x16 .f32) (b2 : Vec F S16 .f32) :
    Vec F S1x16x128x128 .f32 :=
  View.canon [⟨rO, k0_pay1 (k0_pay2 (View.ld xq rC) (View.ld xk rC) (View.ld w1 rW1)) (k0_pay3 (View.ld b1 rB1)) (View.ld w2 rW2) (View.ld b2 rB2)⟩]

/-- The one store is of the whole buffer, so it covers it. -/
theorem cover_out (p0 : Vec F S1x16x128x128 .f32) (y : S1x16x128x128.Idx) :
    ∃ pc ∈ ([⟨rO, p0⟩] : List (View.Piece (Elt F) S1x16x128x128 .f32)), y ∈ pc.1.set :=
  View.cover_of_tiled [⟨rO, p0⟩] S1x16x128x128.size (by rfl) y

/-! ## The body's triple -/

set_option maxHeartbeats 1000000 in
/-- The kernel body on whole staging memrefs, the inputs' at contents `x…` and the result's at anything, runs to
    the continuation holding the inputs' as they were and the result's at `outBlock` of the inputs'. -/
theorem sound_kernel (c : Dev nD) (E : Set ℕ) (i : grid0.Coords)
    (arg3 : Memref sig .tc .vmem S1x128x3 .f32) (harg3 : arg3.IsWhole) (arg4 : Memref sig .tc .vmem S1x128x3 .f32) (harg4 : arg4.IsWhole)
    (arg5 : Memref sig .tc .vmem S1x64 .f32) (harg5 : arg5.IsWhole) (arg6 : Memref sig .tc .vmem S64 .f32) (harg6 : arg6.IsWhole)
    (arg7 : Memref sig .tc .vmem S64x16 .f32) (harg7 : arg7.IsWhole) (arg8 : Memref sig .tc .vmem S16 .f32) (harg8 : arg8.IsWhole)
    (arg9 : Memref sig .tc .vmem S1x16x128x128 .f32) (harg9 : arg9.IsWhole)
    (xq xk : Vec F S1x128x3 .f32) (w1 : Vec F S1x64 .f32) (b1 : Vec F S64 .f32) (w2 : Vec F S64x16 .f32) (b2 : Vec F S16 .f32)
    (K : PUnit → sProp 𝕄) :
    iprop(owns (c : Thread nD τ) arg3 fullShare xq ∗ owns (c : Thread nD τ) arg4 fullShare xk ∗ owns (c : Thread nD τ) arg5 fullShare w1
        ∗ owns (c : Thread nD τ) arg6 fullShare b1 ∗ owns (c : Thread nD τ) arg7 fullShare w2 ∗ owns (c : Thread nD τ) arg8 fullShare b2
        ∗ (∃ d, owns (c : Thread nD τ) arg9 fullShare d)
        ∗ (iprop(owns (c : Thread nD τ) arg3 fullShare xq ∗ owns (c : Thread nD τ) arg4 fullShare xk ∗ owns (c : Thread nD τ) arg5 fullShare w1
            ∗ owns (c : Thread nD τ) arg6 fullShare b1 ∗ owns (c : Thread nD τ) arg7 fullShare w2 ∗ owns (c : Thread nD τ) arg8 fullShare b2
            ∗ owns (c : Thread nD τ) arg9 fullShare (outBlock xq xk w1 b1 w2 b2)) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover_out _)

/-! ## The pipeline's proof data -/

/-- The proof data of the pipeline on core `c`: the arrays as the region finds them; after the body at point `t`
    each input's buffer at its block and the result's at `outBlock` of the six input blocks; no invariant beyond
    the windows (the kernel has no scratch); nothing owed. The coordinates' array is read through windows 0 and 1:
    each holds one half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry, dealt to the windows -/

/-- The buffers behind the windows' arrays, each whole at the full share, are the pipeline's arrays at entry: the
    coordinates' full share is its left half (window 0's) beside its right half (window 1's); every other array is
    one window's, whole. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0]
  rw [BI.bigSep_eq_bigSepL_of_eq [main_arg0, main_arg1, main_arg2, main_arg3, main_arg4, main_v0] (by decide) (by decide)]
  simp only [View.set_whole]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl,
    show (dats m 0 c).share 6 = fullShare from rfl]
  change iprop((((c.tc : Thread nD τ).loc main_arg0) ↦{fullShare} V m c main_arg0) ∗ (((c.tc : Thread nD τ).loc main_arg1) ↦{fullShare} V m c main_arg1)
    ∗ (((c.tc : Thread nD τ).loc main_arg2) ↦{fullShare} V m c main_arg2) ∗ (((c.tc : Thread nD τ).loc main_arg3) ↦{fullShare} V m c main_arg3)
    ∗ (((c.tc : Thread nD τ).loc main_arg4) ↦{fullShare} V m c main_arg4) ∗ (((c.tc : Thread nD τ).loc main_v0) ↦{fullShare} V m c main_v0)) ⊢ _
  iintro ⟨H0, H1, H2, H3, H4, H5⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  isplitl [H3]; · iexact H3
  isplitl [H4]; · iexact H4
  iexact H5

/-! ## The run -/

/-- The rounds library's launch element: every staging cell's owner at round 0 and a duty token for every transfer
    the pipeline issues. -/
def u₀ : UR sig nD τ := initOf (Pipeline.cells cfgs cellOf_inj) (Pipeline.launchToks cfgs cellOf_inj)

/-- The run's post: every array of the call holds what the library computes from the proof data after the last
    write-back. -/
def ArraysPost (r : PUnit × MemSt nD τ sig (Elt F)) : Prop :=
  ∀ (c : Dev nD) (w : Fin cfg0.W), r.2.mem ((cfg0.win w).arr.view.loc (c : Thread nD τ)) = (dats m 0 c).arrAt w cfg0.N

set_option backward.isDefEq.respectTransparency.types false in
/-- At the compiled mesh, for any float values, from any memory with zero counters: every weakly fair execution of
    @main on the TensorCore terminates, nothing faulting, and every final state has every array of the call at
    what the library computes from the proof data. -/
theorem run_main : θ_run defs (onTc (τ := τ) (main (F := F))) (s₀ m ρ) (ArraysPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := Pipeline.hmain_region cfgs 0 defs₀ Variants.none m main fun c => (main_chain c).trans rfl)
    (hsplit := arrays_of_bufs m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-! ## The frame -/

/-- The argument arrays end unchanged: each is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c 0).trans (((dats m 0 c).arrAt_in 0 rfl _).trans (A_eq m c 0)),
      (h c 2).trans (((dats m 0 c).arrAt_in 2 rfl _).trans (A_eq m c 2)),
      (h c 3).trans (((dats m 0 c).arrAt_in 3 rfl _).trans (A_eq m c 3)),
      (h c 4).trans (((dats m 0 c).arrAt_in 4 rfl _).trans (A_eq m c 4)),
      (h c 5).trans (((dats m 0 c).arrAt_in 5 rfl _).trans (A_eq m c 5))⟩) (run_main m ρ)

end Cert.KernelIdeal.Pairwise

end
-- ==== Proof.LibPairTile.lean ====
/-
  Layout operations of a kernel that works on a TILE OF PAIRS, read at an index by coordinates.

  A pairwise kernel holds, per grid point, a [a, b] tile indexed by (query row p, key row q), lifts it to
  [a, b, c] by a trailing feature axis, folds the pair axes into one row axis of a·b rows for a matrix product,
  and unfolds and permutes the product [a·b, h] into [h, a, b]. Each lemma reads one such operation at an index
  given by its coordinates and names the operand's index by coordinates; the folded row of the pair (p, q) is
  p·b + q.
-/
import Idealize.ShloMosaic.Lib.Pipeline.Value
import Idealize.ShloMosaic.Lib.ValueIdx
import Idealize.ShloMosaic.Lib.ValueLayout
import Idealize.ShloMosaic.PureOps.Ideal.Laws

noncomputable section

namespace Cert.PairTile

open Idealize.ShloMosaic Idealize.ShloMosaic.ValueIdx

variable {α : Type}

/-- A column [a, 1] broadcast to [a, b] reads, at (p, q), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A tile [a, b] cast to [a, b, 1] reads, at (p, q, u), the tile at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A tile [a, b, 1] broadcast along a trailing axis to [a, b, c] reads, at (p, q, k), the tile at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector [c] cast to [1, 1, c] reads, at (u, v, k), the vector at k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    simp only [hu, hv, Nat.zero_mul, Nat.zero_add, Nat.mul_one, Nat.add_zero])

/-- A row [1, 1, c] broadcast to [a, b, c] reads, at (p, q, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The pair axes folded: [a, b, c] cast to [n, c] (n = a·b) reads, at (r, k) with r = p·b + q, the tile at (p, q, k). -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The pair axes unfolded: [n, c] cast to [a, b, c] (n = a·b) reads, at (p, q, k), the matrix at (r, k), r = p·b + q. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- The trailing axis brought to the front: [a, b, c] permuted by [2, 0, 1] reads, at (k, p, q), the tile at (p, q, k). -/
theorem transpose_201_apply {a b c : ℕ} (x : (⟨3, ![a, b, c]⟩ : Shape).Idx → α)
    (h : (⟨3, ![a, b, c]⟩ : Shape).Transposes [2, 0, 1] ⟨3, ![c, a, b]⟩) (k : Fin c) (p : Fin a) (q : Fin b) :
    transpose ⟨3, ![c, a, b]⟩ [2, 0, 1] x h (ix3 k p q) = x (ix3 p q k) :=
  transpose_apply _ x h _ _ fun d => match d with | ⟨0, _⟩ => rfl | ⟨1, _⟩ => rfl | ⟨2, _⟩ => rfl

/-- Coordinate o of the query rows over the tile: a [1, a, 3] block cast to [a, 3], its column o cut out as [a, 1]
    and broadcast over the key axis, reads at (p, q) the block at (0, p, o). -/
theorem queryCoord_apply {a b n : ℕ} (x : (⟨3, ![1, a, n]⟩ : Shape).Idx → α) (o : ℕ) (ho : o < n)
    (hc : (⟨3, ![1, a, n]⟩ : Shape).ShapeCasts ⟨2, ![a, n]⟩)
    (hs : (⟨2, ![a, n]⟩ : Shape).Slices ![0, o] ⟨2, ![a, 1]⟩)
    (hb : (⟨2, ![a, 1]⟩ : Shape).Broadcasts ⟨2, ![a, b]⟩) (p : Fin a) (q : Fin b) :
    broadcastTo ⟨2, ![a, b]⟩ (extractStridedSlice ⟨2, ![a, 1]⟩ ![0, o] (shapeCast ⟨2, ![a, n]⟩ x hc) hs) hb (ix2 p q)
      = x (ix3 (0 : Fin 1) p ⟨o, ho⟩) :=
  (broadcastTo_a1_ab_apply _ hb p q).trans
    ((slice2_axis1_apply o _ hs p (0 : Fin 1) ⟨o, ho⟩ (Nat.add_zero o).symm).trans (shapeCast_1ab_ab_apply x hc p ⟨o, ho⟩))

/-- Coordinate o of the key rows over the tile: a [1, b, 3] block cast to [b, 3] and transposed to [3, b], its row o
    cut out as [1, b] and broadcast over the query axis, reads at (p, q) the block at (0, q, o). -/
theorem keyCoord_apply {a b n : ℕ} (x : (⟨3, ![1, b, n]⟩ : Shape).Idx → α) (o : ℕ) (ho : o < n)
    (hc : (⟨3, ![1, b, n]⟩ : Shape).ShapeCasts ⟨2, ![b, n]⟩)
    (ht : (⟨2, ![b, n]⟩ : Shape).Transposes [1, 0] ⟨2, ![n, b]⟩)
    (hs : (⟨2, ![n, b]⟩ : Shape).Slices ![o, 0] ⟨2, ![1, b]⟩)
    (hb : (⟨2, ![1, b]⟩ : Shape).Broadcasts ⟨2, ![a, b]⟩) (p : Fin a) (q : Fin b) :
    broadcastTo ⟨2, ![a, b]⟩ (extractStridedSlice ⟨2, ![1, b]⟩ ![o, 0] (transpose ⟨2, ![n, b]⟩ [1, 0] (shapeCast ⟨2, ![b, n]⟩ x hc) ht) hs) hb (ix2 p q)
      = x (ix3 (0 : Fin 1) q ⟨o, ho⟩) :=
  (broadcastTo_1b_ab_apply _ hb p q).trans
    ((slice2_axis0_apply o _ hs (0 : Fin 1) q ⟨o, ho⟩ (Nat.add_zero o).symm).trans
      ((transpose_ix2_apply _ ht ⟨o, ho⟩ q).trans (shapeCast_1ab_ab_apply x hc q ⟨o, ho⟩)))

/-- A tile [a, b] lifted along a trailing feature axis to [a, b, c] reads, at (p, q, k), the tile at (p, q). -/
theorem liftTile_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x hc) hb (ix3 p q k) = x (ix2 p q) :=
  (broadcastTo_ab1_abc_apply _ hb p q k).trans (shapeCast_ab_ab1_apply x hc p q 0)

/-- A feature vector [c] lifted over the pair axes to [a, b, c] reads, at (p, q, k), the vector at k. -/
theorem liftVec_apply {a b c : ℕ} (x : (⟨1, ![c]⟩ : Shape).Idx → α)
    (hc : (⟨1, ![c]⟩ : Shape).ShapeCasts ⟨3, ![1, 1, c]⟩) (hb : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x hc) hb (ix3 p q k) = x (ix1 k) :=
  (broadcastTo_11c_abc_apply _ hb p q k).trans (shapeCast_c_11c_apply x hc 0 0 k)

/-- A bias vector [c] over the folded rows: cast to [1, c] and broadcast to [n, c], it reads at (r, k) the vector at k. -/
theorem biasRows_apply {n c : ℕ} (x : (⟨1, ![c]⟩ : Shape).Idx → α)
    (hc : (⟨1, ![c]⟩ : Shape).ShapeCasts ⟨2, ![1, c]⟩) (hb : (⟨2, ![1, c]⟩ : Shape).Broadcasts ⟨2, ![n, c]⟩)
    (r : Fin n) (k : Fin c) :
    broadcastTo ⟨2, ![n, c]⟩ (shapeCast ⟨2, ![1, c]⟩ x hc) hb (ix2 r k) = x (ix1 k) :=
  (broadcastTo_1b_ab_apply _ hb r k).trans (shapeCast_a_1a_apply x hc 0 k)

end Cert.PairTile

end
-- ==== Proof.Spec.lean ====
/-
  The relative-position bias of one ordered pair of points, as a number.

  For a query point `p` and a key point `q` of space: their squared distance is the sum of the three squared
  coordinate differences; their distance is its root where it is positive and zero elsewhere, the root taken of
  one where it is not positive; each of the 64 hidden units is the SiLU `x · logistic x` of the distance scaled by
  the unit's weight plus its bias; the pair's bias for one head is the hidden units' sum weighted by the head's
  column of the second layer, plus the head's bias. Both programs compute this number for every batch, head and
  pair; the literals 0 and 1 are kept as the words the programs print.
-/
import Idealize.ShloMosaic.PureOps.Ideal
import Idealize.ShloMosaic.PureOps.Ideal.Laws
import Idealize.ShloMosaic.PureOps.IdealRules
import Idealize.ShloMosaic.Lib.ValueIdx

noncomputable section

namespace Cert.PairBias

open Idealize.ShloMosaic

/-- The f32 words of 0.0 and 1.0 at the ideal values. -/
abbrev zeroW : Ideal .f32 := Ideal.ofBits .f32 0x00000000#32
abbrev oneW : Ideal .f32 := Ideal.ofBits .f32 0x3F800000#32

/-- The squared distance of two points: the squared coordinate differences added left to right. -/
def sqDist (p q : Fin 3 → Ideal .f32) : Ideal .f32 :=
  (p 0 - q 0) * (p 0 - q 0) + (p 1 - q 1) * (p 1 - q 1) + (p 2 - q 2) * (p 2 - q 2)

/-- The distance by the guarded root. -/
def dist (p q : Fin 3 → Ideal .f32) : Ideal .f32 :=
  Scalar.select (FloatOps.cmpf .ogt (sqDist p q) zeroW)
    (FloatOps.sqrt (Scalar.select (FloatOps.cmpf .ogt (sqDist p q) zeroW) (sqDist p q) oneW)) zeroW

/-- One hidden unit: the SiLU of the scaled, shifted distance. -/
def hidden (d w b : Ideal .f32) : Ideal .f32 := (d * w + b) * Ideal.logistic (d * w + b)

/-- The pair's bias for one head. -/
def pairBias (p q : Fin 3 → Ideal .f32) (w1 b1 w2 : Fin 64 → Ideal .f32) (b2 : Ideal .f32) : Ideal .f32 :=
  (∑ k : Fin 64, hidden (dist p q) (w1 k) (b1 k) * w2 k) + b2

/-- The bias of batch b, head h and the pair (i, j) of points, of the argument arrays: the coordinates [4, 1024, 3],
    the first layer's weights [1, 64] and biases [64], the second layer's weights [64, 16] and biases [16]. -/
def pairAt (x : (⟨3, ![4, 1024, 3]⟩ : Shape).Idx → Ideal .f32) (w1 : (⟨2, ![1, 64]⟩ : Shape).Idx → Ideal .f32)
    (b1 : (⟨1, ![64]⟩ : Shape).Idx → Ideal .f32) (w2 : (⟨2, ![64, 16]⟩ : Shape).Idx → Ideal .f32)
    (b2 : (⟨1, ![16]⟩ : Shape).Idx → Ideal .f32) (b : Fin 4) (h : Fin 16) (i j : Fin 1024) : Ideal .f32 :=
  pairBias (fun a => x (ValueIdx.ix3 b i a)) (fun a => x (ValueIdx.ix3 b j a)) (fun k => w1 (ValueIdx.ix2 (0 : Fin 1) k))
    (fun k => b1 (ValueIdx.ix1 k)) (fun k => w2 (ValueIdx.ix2 k h)) (b2 (ValueIdx.ix1 h))

/-- The whole result [4, 16, 1024, 1024] as one function of the argument arrays, index by index. -/
def biasArray (x : (⟨3, ![4, 1024, 3]⟩ : Shape).Idx → Ideal .f32) (w1 : (⟨2, ![1, 64]⟩ : Shape).Idx → Ideal .f32)
    (b1 : (⟨1, ![64]⟩ : Shape).Idx → Ideal .f32) (w2 : (⟨2, ![64, 16]⟩ : Shape).Idx → Ideal .f32)
    (b2 : (⟨1, ![16]⟩ : Shape).Idx → Ideal .f32) : (⟨4, ![4, 16, 1024, 1024]⟩ : Shape).Idx → Ideal .f32 :=
  fun i => pairAt x w1 b1 w2 b2 (i 0) (i 1) (i 2) (i 3)

/-- The word of 1.0 is the number one. -/
theorem oneW_eq : oneW = (1 : EReal) := by
  exact IdealRules.sign_bit.ideal_onePat .f32

end Cert.PairBias

end
-- ==== Proof.IdealBlock.lean ====
/-
  What the kernel's body computes, read at an index of the result block, at the ideal values.

  The body's 128 × 128 tile holds, at (p, q), the distance of query point p of the query block and key point q of
  the key block; lifted along the 64 hidden units, scaled and shifted by the first layer and passed through the
  SiLU; the pair axes folded into 16384 rows, multiplied by the second layer [64, 16] into a zero accumulator,
  shifted by its bias, unfolded and permuted to [16, 128, 128]. Read at head h and pair (p, q) this is the pair's
  bias for head h (`Cert.PairBias.pairBias`) of the two points, the weights and the biases.
-/
import proofs.«117214_j541165879817_1_alg».proof.Proof.Gen.KernelIdeal.Skeleton
import proofs.«117214_j541165879817_1_alg».proof.Proof.LibPairTile
import proofs.«117214_j541165879817_1_alg».proof.Proof.Spec

noncomputable section

namespace Cert.KernelIdeal.Block

open Cert.KernelIdeal Cert.KernelIdeal.Gen
open Idealize.ShloMosaic Idealize.ShloMosaic.ValueIdx Cert.PairTile Cert.PairBias

variable {F : FTy → Type} [FloatOps F]

/-- The tile of squared distances as the body computes it from the query block `v0` and the key block `v2`. -/
def sqTile (v0 v2 : Vec F S1x128x3 .f32) : FVec F S128x128 .f32 :=
  have v1 : FVec F S128x3 .f32 := shapeCast S128x3 v0 shapeCasts_S1x128x3_S128x3
  have v3 : FVec F S128x3 .f32 := shapeCast S128x3 v2 shapeCasts_S1x128x3_S128x3
  have v4 : FVec F S3x128 .f32 := transpose S3x128 [1, 0] v3 transposes_S128x3_p1_0_S3x128
  have v5 : FVec F S128x1 .f32 := extractStridedSlice S128x1 ![0, 0] v1 slices_S128x3_o0_0_S128x1
  have v6 : FVec F S1x128 .f32 := extractStridedSlice S1x128 ![0, 0] v4 slices_S3x128_o0_0_S1x128
  have v7 : FVec F S128x128 .f32 := broadcastTo S128x128 v5 broadcasts_S128x1_S128x128
  have v8 : FVec F S128x128 .f32 := broadcastTo S128x128 v6 broadcasts_S1x128_S128x128
  have v9 : FVec F S128x128 .f32 := subf v7 v8
  have v10 : FVec F S128x128 .f32 := mulf v9 v9
  have v11 : FVec F S128x1 .f32 := extractStridedSlice S128x1 ![0, 1] v1 slices_S128x3_o0_1_S128x1
  have v12 : FVec F S1x128 .f32 := extractStridedSlice S1x128 ![1, 0] v4 slices_S3x128_o1_0_S1x128
  have v13 : FVec F S128x128 .f32 := broadcastTo S128x128 v11 broadcasts_S128x1_S128x128
  have v14 : FVec F S128x128 .f32 := broadcastTo S128x128 v12 broadcasts_S1x128_S128x128
  have v15 : FVec F S128x128 .f32 := subf v13 v14
  have v16 : FVec F S128x128 .f32 := mulf v15 v15
  have v17 : FVec F S128x128 .f32 := addf v10 v16
  have v18 : FVec F S128x1 .f32 := extractStridedSlice S128x1 ![0, 2] v1 slices_S128x3_o0_2_S128x1
  have v19 : FVec F S1x128 .f32 := extractStridedSlice S1x128 ![2, 0] v4 slices_S3x128_o2_0_S1x128
  have v20 : FVec F S128x128 .f32 := broadcastTo S128x128 v18 broadcasts_S128x1_S128x128
  have v21 : FVec F S128x128 .f32 := broadcastTo S128x128 v19 broadcasts_S1x128_S128x128
  have v22 : FVec F S128x128 .f32 := subf v20 v21
  have v23 : FVec F S128x128 .f32 := mulf v22 v22
  have v24 : FVec F S128x128 .f32 := addf v17 v23
  v24

/-- The tile of distances: the guarded root of the squared distances. -/
def distTile (v0 v2 : Vec F S1x128x3 .f32) : FVec F S128x128 .f32 :=
  have v24 : FVec F S128x128 .f32 := sqTile v0 v2
  have cst : F .f32 := Scalar.ofBits .f32 0x00000000#32
  have v25 : FVec F S128x128 .f32 := broadcast S128x128 cst
  have v26 : IVec S128x128 1 := cmpf .ogt v24 v25
  have cst_5 : F .f32 := Scalar.ofBits .f32 0x3F800000#32
  have v27 : FVec F S128x128 .f32 := broadcast S128x128 cst_5
  have v28 : FVec F S128x128 .f32 := select v26 v24 v27
  have cst_6 : F .f32 := Scalar.ofBits .f32 0x00000000#32
  have v29 : FVec F S128x128 .f32 := broadcast S128x128 cst_6
  have v30 : IVec S128x128 1 := cmpf .ogt v24 v29
  have v31 : FVec F S128x128 .f32 := sqrt v28
  have cst_7 : F .f32 := Scalar.ofBits .f32 0x00000000#32
  have v32 : FVec F S128x128 .f32 := broadcast S128x128 cst_7
  have v33 : FVec F S128x128 .f32 := select v30 v31 v32
  v33

/-- The first payload is the distances lifted along the hidden units times the first layer's weights lifted over the pairs. -/
theorem pay2_eq (v0 v2 : Vec F S1x128x3 .f32) (v34 : Vec F S1x64 .f32) :
    k0_pay2 v0 v2 v34
      = mulf (broadcastTo S128x128x64 (shapeCast S128x128x1 (distTile v0 v2) shapeCasts_S128x128_S128x128x1) broadcasts_S128x128x1_S128x128x64)
          (broadcastTo S128x128x64 (shapeCast S1x1x64 (shapeCast S64 v34 shapeCasts_S1x64_S64) shapeCasts_S64_S1x1x64) broadcasts_S1x1x64_S128x128x64) := rfl

/-- The squared-distance tile at (p, q) is the squared distance of query point p and key point q. -/
theorem sqTile_apply (v0 v2 : Vec Ideal S1x128x3 .f32) (p q : Fin 128) :
    sqTile v0 v2 (ix2 p q) = sqDist (fun a => v0 (ix3 (0 : Fin 1) p a)) (fun a => v2 (ix3 (0 : Fin 1) q a)) := by
  unfold sqTile
  simp only [addf_apply, mulf_apply, subf_apply]
  rw [queryCoord_apply v0 0 (by decide), queryCoord_apply v0 1 (by decide), queryCoord_apply v0 2 (by decide),
    keyCoord_apply v2 0 (by decide), keyCoord_apply v2 1 (by decide), keyCoord_apply v2 2 (by decide)]
  rfl

/-- The distance tile at (p, q) is the two points' distance. -/
theorem distTile_apply (v0 v2 : Vec Ideal S1x128x3 .f32) (p q : Fin 128) :
    distTile v0 v2 (ix2 p q) = dist (fun a => v0 (ix3 (0 : Fin 1) p a)) (fun a => v2 (ix3 (0 : Fin 1) q a)) := by
  show Scalar.select (FloatOps.cmpf .ogt (sqTile v0 v2 (ix2 p q)) zeroW)
      (FloatOps.sqrt (Scalar.select (FloatOps.cmpf .ogt (sqTile v0 v2 (ix2 p q)) zeroW) (sqTile v0 v2 (ix2 p q)) oneW)) zeroW = _
  rw [sqTile_apply]
  rfl

/-- The first payload at (p, q, k): the pair's distance times hidden unit k's weight. -/
theorem pay2_apply (v0 v2 : Vec Ideal S1x128x3 .f32) (v34 : Vec Ideal S1x64 .f32) (p q : Fin 128) (k : Fin 64) :
    k0_pay2 v0 v2 v34 (ix3 p q k)
      = dist (fun a => v0 (ix3 (0 : Fin 1) p a)) (fun a => v2 (ix3 (0 : Fin 1) q a)) * v34 (ix2 (0 : Fin 1) k) := by
  rw [pay2_eq, mulf_apply, liftTile_apply, liftVec_apply, shapeCast_1a_a_apply, distTile_apply]

/-- The second payload at (p, q, k): hidden unit k's bias. -/
theorem pay3_apply (v36 : Vec Ideal S64 .f32) (p q : Fin 128) (k : Fin 64) : k0_pay3 v36 (ix3 p q k) = v36 (ix1 k) := by
  unfold k0_pay3
  exact liftVec_apply v36 _ _ p q k

/-! ## The second layer -/

local notation "D₂" => dot_S16384x64_S64x16_S16384x16_1_0_0_1_n_n

theorem lhs_row (i : S16384x16.Idx) (g : (D₂).contr.Idx) : ((D₂).lhsIdx i g 0).val = (i 0).val := by
  unfold DotDims.lhsIdx
  rw [dif_neg (show ¬(0 : Fin S16384x64.rank) ∈ (D₂).lhsBatch by decide), dif_pos (show (0 : Fin S16384x64.rank) ∈ (D₂).lhsNonContracting by decide)]
  rfl

theorem rhs_col (i : S16384x16.Idx) (g : (D₂).contr.Idx) : ((D₂).rhsIdx i g 1).val = (i 1).val := by
  unfold DotDims.rhsIdx
  rw [dif_neg (show ¬(1 : Fin S64x16.rank) ∈ (D₂).rhsBatch by decide), dif_pos (show (1 : Fin S64x16.rank) ∈ (D₂).rhsNonContracting by decide)]
  rfl

/-- The matrix product into a zero accumulator, at row r and head h: the sum over the 64 hidden units of the
    row's entry times the head's column's. -/
theorem matmul_zero_apply (A : FVec Ideal S16384x64 .bf16) (B : FVec Ideal S64x16 .bf16) (r : Fin 16384) (h : Fin 16) :
    matmul D₂ none A B (constant S16384x16 .f32 0x00000000#32) (ix2 r h) = ∑ k : Fin 64, A (ix2 r k) * B (ix2 k h) := by
  simp only [matmul]
  rw [Ideal.matmul_constant_zero_apply, ← Equiv.sum_comp (contrEquiv1 D₂ 64 rfl rfl).symm]
  refine Finset.sum_congr rfl fun k _ => ?_
  have hk := contrEquiv1_symm_val D₂ 64 rfl rfl k
  have el : (D₂).lhsIdx (ix2 r h) ((contrEquiv1 D₂ 64 rfl rfl).symm k) = ix2 r k := funext fun a => Fin.ext (by
    match a with
    | ⟨0, _⟩ => exact lhs_row _ _
    | ⟨1, _⟩ => exact ((D₂).lhsIdx_val_of_single rfl _ _).trans hk)
  have er : (D₂).rhsIdx (ix2 r h) ((contrEquiv1 D₂ 64 rfl rfl).symm k) = ix2 k h := funext fun a => Fin.ext (by
    match a with
    | ⟨0, _⟩ => exact ((D₂).rhsIdx_val_of_single rfl _ _).trans hk
    | ⟨1, _⟩ => exact rhs_col _ _)
  rw [el, er]

/-- The folded row of the pair (p, q). -/
abbrev rowOf (p q : Fin 128) : Fin 16384 := ⟨p.val * 128 + q.val, by have := p.isLt; have := q.isLt; omega⟩

/-- The stored payload at head h and pair (p, q): the SiLU of the two lifted payloads' sum, summed over the hidden
    units against the head's column of the second layer, plus the head's bias. -/
theorem pay1_apply (v41 v43 : FVec Ideal S128x128x64 .f32) (v49 : Vec Ideal S64x16 .f32) (v52 : Vec Ideal S16 .f32)
    (h : Fin 16) (p q : Fin 128) :
    k0_pay1 v41 v43 v49 v52 (ix4 (0 : Fin 1) h p q)
      = (∑ k : Fin 64, ((v41 (ix3 p q k) + v43 (ix3 p q k)) * Ideal.logistic (v41 (ix3 p q k) + v43 (ix3 p q k))) * v49 (ix2 k h))
        + v52 (ix1 h) := by
  unfold k0_pay1
  refine (shapeCast_abc_1abc_apply _ _ (0 : Fin 1) h p q).trans ?_
  refine (transpose_201_apply _ _ h p q).trans ?_
  refine (shapeCast_nc_abc_apply _ _ p q h (rowOf p q) rfl).trans ?_
  rw [addf_apply, matmul_zero_apply, biasRows_apply]
  refine congrArg (· + v52 (ix1 h)) (Finset.sum_congr rfl fun k _ => ?_)
  rw [truncf_apply, truncf_apply, shapeCast_abc_nc_apply _ _ p q k (rowOf p q) rfl]
  rfl

end Cert.KernelIdeal.Block

end
-- ==== Proof.IdealValue.lean ====
/-
  The idealized kernel's result array after the run: the bias array of the argument arrays.

  Grid point t = (b, qi, ki) writes back the block of the result at batch b, all 16 heads, query rows
  128·qi … 128·qi + 127 and key rows 128·ki … 128·ki + 127. Its query block is rows 128·qi … of batch b of the
  coordinates and its key block rows 128·ki … of the same batch; the weights' and biases' blocks are the whole
  arrays. So what the point writes back is its block of ONE function of the argument arrays — the pair's bias at
  (b, h, 128·qi + p, 128·ki + q) — and the 256 blocks tile the result: the array ends holding that function.
-/
import proofs.«117214_j541165879817_1_alg».proof.Proof.IdealRun
import proofs.«117214_j541165879817_1_alg».proof.Proof.IdealBlock

set_option maxRecDepth 16384

noncomputable section

namespace Cert.KernelIdeal.Whole

open Cert.KernelIdeal Cert.KernelIdeal.Gen Cert.KernelIdeal.Pairwise Cert.KernelIdeal.Block
open Idealize.ShloMosaic Idealize.ShloMosaic.TcCoe Idealize.ShloMosaic.ValueIdx Cert.PairBias
open Idealize.SL Idealize.SL.Sem
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The block the body leaves, at head h and pair (p, q): the pair's bias of the blocks' entries. -/
theorem outBlock_apply (xq xk : Vec Ideal S1x128x3 .f32) (w1 : Vec Ideal S1x64 .f32) (b1 : Vec Ideal S64 .f32)
    (w2 : Vec Ideal S64x16 .f32) (b2 : Vec Ideal S16 .f32) (h : Fin 16) (p q : Fin 128) :
    outBlock xq xk w1 b1 w2 b2 (ix4 (0 : Fin 1) h p q)
      = pairBias (fun a => xq (ix3 (0 : Fin 1) p a)) (fun a => xk (ix3 (0 : Fin 1) q a)) (fun k => w1 (ix2 (0 : Fin 1) k))
          (fun k => b1 (ix1 k)) (fun k => w2 (ix2 k h)) (b2 (ix1 h)) := by
  unfold outBlock
  rw [View.canon_unit_zero hz4]
  simp only [View.ld_unit_zero (S := S1x128x3) hz3, View.ld_unit_zero (S := S1x64) hz2, View.ld_unit_zero (S := S64) hz1,
    View.ld_unit_zero (S := S64x16) hz2, View.ld_unit_zero (S := S16) hz1]
  rw [pay1_apply]
  simp only [pay2_apply, pay3_apply]
  rfl

/-- The printed index maps, decided over the grid: the query window follows the result's batch and query tile, the
    key window its batch and key tile, the weights' and biases' windows stay at block 0, and the result's block
    indices stay in their ranges. -/
theorem idx_facts : ∀ t : Fin cfg0.N,
    win0_0.index t (0 : Fin 3) = win0_6.index t (0 : Fin 4) ∧ win0_0.index t (1 : Fin 3) = win0_6.index t (2 : Fin 4) ∧ win0_0.index t (2 : Fin 3) = 0
    ∧ win0_1.index t (0 : Fin 3) = win0_6.index t (0 : Fin 4) ∧ win0_1.index t (1 : Fin 3) = win0_6.index t (3 : Fin 4) ∧ win0_1.index t (2 : Fin 3) = 0
    ∧ win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (1 : Fin 4) = 0 ∧ win0_6.index t (0 : Fin 4) ≤ 3 ∧ win0_6.index t (2 : Fin 4) ≤ 7 ∧ win0_6.index t (3 : Fin 4) ≤ 7 :=
  (by decide +kernel : ∀ t : Fin grid0.N, _)

/-- Every block of the result is some point's. -/
theorem idx_onto : ∀ (q0 : Fin 4) (q2 q3 : Fin 8), ∃ t : Fin cfg0.N, win0_6.index t = ![q0.val, 0, q2.val, q3.val] :=
  (by decide +kernel : ∀ (q0 : Fin 4) (q2 q3 : Fin 8), ∃ t : Fin grid0.N, win0_6.index t = ![q0.val, 0, q2.val, q3.val])

/-- The argument arrays as the region finds them. -/
abbrev X0 (c : Dev nD) := V m c main_arg0
abbrev X1 (c : Dev nD) := V m c main_arg1
abbrev X2 (c : Dev nD) := V m c main_arg2
abbrev X3 (c : Dev nD) := V m c main_arg3
abbrev X4 (c : Dev nD) := V m c main_arg4

/-- WHAT POINT t WRITES BACK is block t of the bias array of the argument arrays. -/
theorem flushed_eq (c : Dev nD) (t : Fin cfg0.N) :
    (dats m 0 c).flushed 6 t = ((cfg0.win 6).blk t).view.read (Elt Ideal) (biasArray (X0 m c) (X1 m c) (X2 m c) (X3 m c) (X4 m c)) := by
  show (cfg0.win 6).cut (grid0.coords t) ((dats m 0 c).after 6 t) = _
  rw [after6]
  obtain ⟨e00, e01, e02, e10, e11, e12, e20, e21, e30, e40, e41, e50, e61, r0, r2, r3⟩ := idx_facts t
  funext y
  obtain ⟨u, h, p, q, rfl⟩ : ∃ (u : Fin 1) (h : Fin 16) (p q : Fin 128), y = ix4 u h p q := ⟨y 0, y 1, y 2, y 3, eq_ix4 y⟩
  obtain rfl : u = 0 := Subsingleton.elim _ _
  show outBlock (iblk m c 0 t) (iblk m c 1 t) (iblk m c 2 t) (iblk m c 3 t) (iblk m c 4 t) (iblk m c 5 t) (ix4 (0 : Fin 1) h p q)
    = biasArray (X0 m c) (X1 m c) (X2 m c) (X3 m c) (X4 m c) (((cfg0.win 6).blk t).view.emb (ix4 (0 : Fin 1) h p q))
  rw [outBlock_apply]
  have hq : ∀ a : Fin 3, iblk m c 0 t (ix3 (0 : Fin 1) p a)
      = X0 m c (ix3 ⟨win0_6.index t (0 : Fin 4) * 1 + 1 * 0, by omega⟩ ⟨win0_6.index t (2 : Fin 4) * 128 + 1 * p.val, by have := p.isLt; omega⟩ a) := fun a => by
    show V m c main_arg0 (((cfg0.win 0).blk t).view.emb (ix3 (0 : Fin 1) p a)) = _
    refine congrArg _ (funext fun d => Fin.ext ?_)
    match d with
    | ⟨0, _⟩ => show win0_0.index t (0 : Fin 3) * 1 + 1 * 0 = win0_6.index t (0 : Fin 4) * 1 + 1 * 0; omega
    | ⟨1, _⟩ => show win0_0.index t (1 : Fin 3) * 128 + 1 * p.val = win0_6.index t (2 : Fin 4) * 128 + 1 * p.val; omega
    | ⟨2, _⟩ => show win0_0.index t (2 : Fin 3) * 3 + 1 * a.val = a.val; omega
  have hk : ∀ a : Fin 3, iblk m c 1 t (ix3 (0 : Fin 1) q a)
      = X0 m c (ix3 ⟨win0_6.index t (0 : Fin 4) * 1 + 1 * 0, by omega⟩ ⟨win0_6.index t (3 : Fin 4) * 128 + 1 * q.val, by have := q.isLt; omega⟩ a) := fun a => by
    show V m c main_arg0 (((cfg0.win 1).blk t).view.emb (ix3 (0 : Fin 1) q a)) = _
    refine congrArg _ (funext fun d => Fin.ext ?_)
    match d with
    | ⟨0, _⟩ => show win0_1.index t (0 : Fin 3) * 1 + 1 * 0 = win0_6.index t (0 : Fin 4) * 1 + 1 * 0; omega
    | ⟨1, _⟩ => show win0_1.index t (1 : Fin 3) * 128 + 1 * q.val = win0_6.index t (3 : Fin 4) * 128 + 1 * q.val; omega
    | ⟨2, _⟩ => show win0_1.index t (2 : Fin 3) * 3 + 1 * a.val = a.val; omega
  have hw1 : ∀ k : Fin 64, iblk m c 2 t (ix2 (0 : Fin 1) k) = X1 m c (ix2 (0 : Fin 1) k) := fun k => by
    show V m c main_arg1 (((cfg0.win 2).blk t).view.emb (ix2 (0 : Fin 1) k)) = _
    refine congrArg _ (funext fun d => Fin.ext ?_)
    match d with
    | ⟨0, _⟩ => show win0_2.index t (0 : Fin 2) * 1 + 1 * 0 = 0; omega
    | ⟨1, _⟩ => show win0_2.index t (1 : Fin 2) * 64 + 1 * k.val = k.val; omega
  have hb1 : ∀ k : Fin 64, iblk m c 3 t (ix1 k) = X2 m c (ix1 k) := fun k => by
    show V m c main_arg2 (((cfg0.win 3).blk t).view.emb (ix1 k)) = _
    refine congrArg _ (funext fun d => Fin.ext ?_)
    match d with
    | ⟨0, _⟩ => show win0_3.index t (0 : Fin 1) * 64 + 1 * k.val = k.val; omega
  have hw2 : ∀ k : Fin 64, iblk m c 4 t (ix2 k h) = X3 m c (ix2 k h) := fun k => by
    show V m c main_arg3 (((cfg0.win 4).blk t).view.emb (ix2 k h)) = _
    refine congrArg _ (funext fun d => Fin.ext ?_)
    match d with
    | ⟨0, _⟩ => show win0_4.index t (0 : Fin 2) * 64 + 1 * k.val = k.val; omega
    | ⟨1, _⟩ => show win0_4.index t (1 : Fin 2) * 16 + 1 * h.val = h.val; omega
  have hb2 : iblk m c 5 t (ix1 h) = X4 m c (ix1 h) := by
    show V m c main_arg4 (((cfg0.win 5).blk t).view.emb (ix1 h)) = _
    refine congrArg _ (funext fun d => Fin.ext ?_)
    match d with
    | ⟨0, _⟩ => show win0_5.index t (0 : Fin 1) * 16 + 1 * h.val = h.val; omega
  simp only [hq, hk, hw1, hb1, hw2, hb2]
  unfold biasArray pairAt
  have hh : (((cfg0.win 6).blk t).view.emb (ix4 (0 : Fin 1) h p q)) 1 = h := Fin.ext (by
    show win0_6.index t (1 : Fin 4) * 16 + 1 * h.val = h.val; omega)
  rw [hh]
  rfl

/-- An index of the result is in point t's block iff each coordinate is in the block's range on its axis. -/
theorem mem_blk (t : Fin cfg0.N) (i : S4x16x1024x1024.Idx) :
    i ∈ ((cfg0.win 6).blk t).view.set ↔ ∀ a : Fin 4, win0_6.index t a * S1x16x128x128.size a ≤ (i a).val ∧ (i a).val < win0_6.index t a * S1x16x128x128.size a + S1x16x128x128.size a := by
  show i ∈ ((View.whole main_v0).slice (win0_6.rect t)).set ↔ _
  rw [View.set_slice_whole, Rect.mem_set_unit]
  exact Iff.rfl

/-- The 256 blocks tile the result: every index is in the block of the point of its batch, query tile and key tile. -/
theorem cover (i : S4x16x1024x1024.Idx) : ∃ t : Fin cfg0.N, (cfg0.win 6).flush t = true ∧ i ∈ ((cfg0.win 6).blk t).view.set := by
  have hi0 : (i 0).val < 4 := (i 0).isLt
  have hi1 : (i 1).val < 16 := (i 1).isLt
  have hi2 : (i 2).val < 1024 := (i 2).isLt
  have hi3 : (i 3).val < 1024 := (i 3).isLt
  obtain ⟨t, ht⟩ := idx_onto ⟨(i 0).val, hi0⟩ ⟨(i 2).val / 128, by omega⟩ ⟨(i 3).val / 128, by omega⟩
  have q0 : win0_6.index t (0 : Fin 4) = (i 0).val := congrFun ht 0
  have q1 : win0_6.index t (1 : Fin 4) = 0 := congrFun ht 1
  have q2 : win0_6.index t (2 : Fin 4) = (i 2).val / 128 := congrFun ht 2
  have q3 : win0_6.index t (3 : Fin 4) = (i 3).val / 128 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 128 ≤ (i 2).val ∧ (i 2).val < win0_6.index t (2 : Fin 4) * 128 + 128; omega
  | ⟨3, _⟩ => show win0_6.index t (3 : Fin 4) * 128 ≤ (i 3).val ∧ (i 3).val < win0_6.index t (3 : Fin 4) * 128 + 128; omega

/-- THE RESULT ARRAY after the run is the bias array of the argument arrays. -/
theorem final (c : Dev nD) :
    (dats m 0 c).arrAt 6 cfg0.N = biasArray (X0 m c) (X1 m c) (X2 m c) (X3 m c) (X4 m c) :=
  (dats m 0 c).arrAt_eq_of_cover 6 _ (fun t _ => flushed_eq m c t) cover

/-- The run re-posted: the result at the bias array of the arguments, the arguments unchanged. -/
theorem run : θ_run defs (onTc (τ := τ) (main (F := Ideal))) ⟨m, fun _ => 0, ρ⟩ fun r => ∀ c : Dev nD,
      r.2.mem ((c.tc : Thread nD τ).loc main_v0)
        = biasArray (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c 6).trans (final m c),
      (h c 0).trans (((dats m 0 c).arrAt_in 0 rfl _).trans (A_eq m c 0)),
      (h c 2).trans (((dats m 0 c).arrAt_in 2 rfl _).trans (A_eq m c 2)),
      (h c 3).trans (((dats m 0 c).arrAt_in 3 rfl _).trans (A_eq m c 3)),
      (h c 4).trans (((dats m 0 c).arrAt_in 4 rfl _).trans (A_eq m c 4)),
      (h c 5).trans (((dats m 0 c).arrAt_in 5 rfl _).trans (A_eq m c 5))⟩) (run_main m ρ)

end Cert.KernelIdeal.Whole

end
-- ==== Proof.RefValue.lean ====
/-
  The reference at the ideal values, read at an index of its result: at batch b, head h and the pair (i, j) of
  points it is the pair's bias for head h (`Cert.PairBias.pairBias`) of points i and j of batch b.

  The reference broadcasts the coordinates to [4, 1024, 1024, 3] twice (the query point along axis 1, the key
  point along axis 2), subtracts, squares and sums the last axis from zero; guards the root by two selects;
  scales and shifts by the first layer along a new last axis of 64; applies the SiLU as x · (1 / (1 + e^(−x)));
  contracts the last axis with the second layer; adds its bias and moves the head axis to position 1.
-/
import proofs.«117214_j541165879817_1_alg».proof.Proof.Gen.ReferenceIdeal.Read
import proofs.«117214_j541165879817_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.PairBias

variable (x0 : (⟨S4x1024x3, .f32⟩ : BufTy).Contents (Elt Ideal)) (x1 : (⟨S1x64, .f32⟩ : BufTy).Contents (Elt Ideal))
  (x2 : (⟨S64, .f32⟩ : BufTy).Contents (Elt Ideal)) (x3 : (⟨S64x16, .f32⟩ : BufTy).Contents (Elt Ideal))
  (x4 : (⟨S16, .f32⟩ : BufTy).Contents (Elt Ideal))

/-- The sum over the coordinate axis, from zero, is the squared distance of points i and j of batch b. -/
theorem sq_apply (b : Fin 4) (i j : Fin 1024) :
    val_main_v6 (F := Ideal) x0 (ix3 b i j) = sqDist (fun a => x0 (ix3 b i a)) (fun a => x0 (ix3 b j a)) := by
  have hq : ∀ k : Fin 3, idx_main_v0 (idx_main_v2 (idx_main_v6 (ix3 b i j) k)) = ix3 b i k := fun k =>
    funext fun a => Fin.ext (by match a with | ⟨0, _⟩ => rfl | ⟨1, _⟩ => rfl | ⟨2, _⟩ => rfl)
  have hk : ∀ k : Fin 3, idx_main_v1 (idx_main_v3 (idx_main_v6 (ix3 b i j) k)) = ix3 b j k := fun k =>
    funext fun a => Fin.ext (by match a with | ⟨0, _⟩ => rfl | ⟨1, _⟩ => rfl | ⟨2, _⟩ => rfl)
  rw [val_main_v6_apply, Fin.sum_univ_three]
  simp only [val_main_v5_apply, val_main_v4_apply, val_main_v2_apply, val_main_v3_apply, val_main_v0_apply, val_main_v1_apply, hq, hk]
  show Ideal.ofBits .f32 0x00000000#32 + _ = _
  rw [Ideal.ofBits_zero_f32, zero_add]
  rfl

/-- The two selects around the root are the guarded distance. -/
theorem dist_apply (b : Fin 4) (i j : Fin 1024) :
    val_main_v13 (F := Ideal) x0 (ix3 b i j) = dist (fun a => x0 (ix3 b i a)) (fun a => x0 (ix3 b j a)) := by
  rw [val_main_v13_apply, val_main_v11_apply, val_main_v12_apply, val_main_v9_apply, val_main_v8_apply, val_main_v10_apply,
    val_main_v7_apply, val_main_call0_v1_apply, val_main_call1_v1_apply, sq_apply]
  rfl

/-- The first layer's pre-activation of hidden unit k. -/
theorem pre_apply (b : Fin 4) (i j : Fin 1024) (k : Fin 64) :
    val_main_v22 (F := Ideal) x0 x1 x2 (ix4 b i j k)
      = dist (fun a => x0 (ix3 b i a)) (fun a => x0 (ix3 b j a)) * x1 (ix2 (0 : Fin 1) k) + x2 (ix1 k) := by
  have h13 : idx_main_v14 (idx_main_v17 (ix4 b i j k)) = ix3 b i j :=
    funext fun a => Fin.ext (by match a with | ⟨0, _⟩ => rfl | ⟨1, _⟩ => rfl | ⟨2, _⟩ => rfl)
  have h15 : idx_main_v15 (idx_main_v16 (idx_main_v18 (ix4 b i j k))) = ix2 (0 : Fin 1) k :=
    funext fun a => Fin.ext (by
      match a with
      | ⟨0, _⟩ => rfl
      | ⟨1, _⟩ => exact Nat.mod_eq_of_lt k.isLt)
  have h20 : idx_main_v20 (idx_main_v21 (ix4 b i j k)) = ix1 k :=
    funext fun a => Fin.ext (by match a with | ⟨0, _⟩ => rfl)
  rw [val_main_v22_apply, val_main_v19_apply, val_main_v17_apply, val_main_v14_apply, val_main_v18_apply, val_main_v16_apply,
    val_main_v15_apply, val_main_v21_apply, val_main_v20_apply, h13, h15, h20, dist_apply]
  rfl

/-- The SiLU as the reference spells it, x · (1 / (1 + e^(−x))), is x · logistic x. -/
theorem hidden_apply (b : Fin 4) (i j : Fin 1024) (k : Fin 64) :
    val_main_v23 (F := Ideal) x0 x1 x2 (ix4 b i j k)
      = hidden (dist (fun a => x0 (ix3 b i a)) (fun a => x0 (ix3 b j a))) (x1 (ix2 (0 : Fin 1) k)) (x2 (ix1 k)) := by
  rw [val_main_v23_apply, val_main_call2_v5_apply, val_main_call2_v3_apply, val_main_call2_v1_apply, val_main_call2_v0_apply,
    val_main_call2_v4_apply, val_main_call2_v2_apply, pre_apply]
  show _ * Ideal.div oneW (oneW + Ideal.exp (-_)) = _
  rw [oneW_eq]
  rfl

/-- The reference's result at (b, h, i, j). -/
theorem result_apply (b : Fin 4) (h : Fin 16) (i j : Fin 1024) :
    val_main_v28 (F := Ideal) x0 x1 x2 x3 x4 (ix4 b h i j)
      = pairBias (fun a => x0 (ix3 b i a)) (fun a => x0 (ix3 b j a)) (fun k => x1 (ix2 (0 : Fin 1) k)) (fun k => x2 (ix1 k))
          (fun k => x3 (ix2 k h)) (x4 (ix1 h)) := by
  have hl : ∀ k : Fin 64, lidx_main_v24 (idx_main_v28 (ix4 b h i j)) k = ix4 b i j k := fun k =>
    funext fun a => Fin.ext (by match a with | ⟨0, _⟩ => rfl | ⟨1, _⟩ => rfl | ⟨2, _⟩ => rfl | ⟨3, _⟩ => rfl)
  have hr : ∀ k : Fin 64, ridx_main_v24 (idx_main_v28 (ix4 b h i j)) k = ix2 k h := fun k =>
    funext fun a => Fin.ext (by match a with | ⟨0, _⟩ => rfl | ⟨1, _⟩ => rfl)
  have h25 : idx_main_v25 (idx_main_v26 (idx_main_v28 (ix4 b h i j))) = ix1 h :=
    funext fun a => Fin.ext (by match a with | ⟨0, _⟩ => rfl)
  rw [val_main_v28_apply, val_main_v27_apply, val_main_v24_apply, val_main_v26_apply, val_main_v25_apply, h25]
  simp only [hl, hr, hidden_apply]
  rfl

/-- The reference's whole result is the bias array of its arguments. -/
theorem result_eq : val_main_v28 (F := Ideal) x0 x1 x2 x3 x4 = biasArray x0 x1 x2 x3 x4 := by
  funext y
  obtain ⟨b, h, i, j, rfl⟩ : ∃ (b : Fin 4) (h : Fin 16) (i j : Fin 1024), y = ix4 b h i j := ⟨y 0, y 1, y 2, y 3, eq_ix4 y⟩
  exact result_apply x0 x1 x2 x3 x4 b h i j

end Cert.ReferenceIdeal.RefValue

end
-- ==== Proof.lean ====
/-
  The distance-to-bias kernel against its jnp reference, over the extended reals.

  Both programs map the coordinates [4, 1024, 3] of 1024 points per batch and a two-layer perceptron (1 → 64 by
  SiLU, 64 → 16) to a bias [4, 16, 1024, 1024]: for every batch, head and ordered pair of points, the head's
  output of the perceptron at the pair's Euclidean distance, the root guarded at zero. The kernel does it tile by
  tile — a 128 × 128 tile of pairs per grid point, the 64 → 16 layer as one matrix product over the tile's 16384
  folded pairs — and the reference over whole arrays; at the ideal values a change of float format is the identity
  and a product into a zero accumulator is the plain sum, so both hold the same number at every index
  (`Cert.PairBias.biasArray`). No law of arithmetic is needed beyond 0 + x = x and the word of 1.0 being one, so
  the precondition is never opened.

  The frames: the pallas_call reads the coordinates through two windows of one array, so its run is proved
  against the launch rule that deals the array's share between the windows (Proof/BitsRun.lean at the word-level
  instance, Proof/IdealRun.lean at the ideal one); the reference's is its generated run.
-/
import proofs.«117214_j541165879817_1_alg».proof.Defs
import proofs.«117214_j541165879817_1_alg».proof.Proof.Gen.Kernel
import proofs.«117214_j541165879817_1_alg».proof.Proof.Gen.KernelIdeal
import proofs.«117214_j541165879817_1_alg».proof.Proof.Gen.ReferenceIdeal
import proofs.«117214_j541165879817_1_alg».proof.Proof.Gen.Pre_finite_inputs
import proofs.«117214_j541165879817_1_alg».proof.Proof.BitsRun
import proofs.«117214_j541165879817_1_alg».proof.Proof.IdealValue
import proofs.«117214_j541165879817_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Pairwise.frame m ρ

theorem frame_ki : Cert.frame_KernelIdeal := fun m ρ _ => Cert.KernelIdeal.Pairwise.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read at the ideal values. -/
theorem preserves : Cert.preserves_Kernel_KernelIdeal := trivial

/-- The kernel's result array ends at the bias array of its arguments (Proof/IdealValue.lean) and the reference's
    at the same function of arguments that agree (Proof/RefValue.lean). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
